-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v1)) (v5 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v1) = v4 c
          ∧ r.2.mem ((c.tc : Thread Cert.KernelIdeal.nD Cert.KernelIdeal.τ).loc Cert.KernelIdeal.main_v0_4) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v3) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v37) = v3 c
          ∧ r.2.mem ((c.tc : Thread Cert.ReferenceIdeal.nD Cert.ReferenceIdeal.τ).loc Cert.ReferenceIdeal.main_v38) = v4 c
          ∧ r.2.mem ((c.tc : Thread Cert.ReferenceIdeal.nD Cert.ReferenceIdeal.τ).loc Cert.ReferenceIdeal.main_v18) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024 : Shape := ⟨2, ![64, 1024]⟩
abbrev S_ : Shape := ⟨0, ![]⟩

class Facts : Prop where
  bcast_S_S64x1024 : S_.BroadcastsInDim S64x1024 (![] : Fin 0 → Fin S64x1024.rank)
  reducesTo_S64x1024_S_d0_1 : S64x1024.ReducesTo [0, 1] S_
  h_S_ : 0 < S_.numel

variable [Facts]

def fn {F : FTy → Type} [FloatOps F] (main_arg0 : FVec F S64x1024 .f32) (main_arg1 : FVec F S64x1024 .f32) : IVec S_ 1 :=
  let main_v0 : FVec F S64x1024 .f32 := Host.absf main_arg0
  let main_cst : FVec F S_ .f32 := constant S_ .f32 0x7F800000#32
  let main_v1 : FVec F S64x1024 .f32 := broadcastInDim S64x1024 ![] bcast_S_S64x1024 main_cst
  let main_v2 : IVec S64x1024 1 := cmpf .olt main_v0 main_v1
  let main_c : IVec S_ 1 := constantI S_ 1 1#1
  let main_v3 : IVec S_ 1 := (fun x v => Host.reduce IntOp.andi x v reducesTo_S64x1024_S_d0_1 h_S_) main_v2 main_c
  let main_v4 : FVec F S64x1024 .f32 := Host.absf main_arg1
  let main_cst_0 : FVec F S_ .f32 := constant S_ .f32 0x7F800000#32
  let main_v5 : FVec F S64x1024 .f32 := broadcastInDim S64x1024 ![] bcast_S_S64x1024 main_cst_0
  let main_v6 : IVec S64x1024 1 := cmpf .olt main_v4 main_v5
  let main_c_1 : IVec S_ 1 := constantI S_ 1 1#1
  let main_v7 : IVec S_ 1 := (fun x v => Host.reduce IntOp.andi x v reducesTo_S64x1024_S_d0_1 h_S_) main_v6 main_c_1
  let main_v8 : IVec S_ 1 := andi main_v3 main_v7
  main_v8
-- ==== Kernel.lean ====
abbrev S64x1024 : Shape := ⟨2, ![64, 1024]⟩
abbrev S64x1024x1024 : Shape := ⟨3, ![64, 1024, 1024]⟩
abbrev S16x128 : Shape := ⟨2, ![16, 128]⟩
abbrev S16x128x1024 : Shape := ⟨3, ![16, 128, 1024]⟩
abbrev S128x128 : Shape := ⟨2, ![128, 128]⟩
abbrev S1x128x128 : Shape := ⟨3, ![1, 128, 128]⟩
abbrev S16x128x1 : Shape := ⟨3, ![16, 128, 1]⟩
abbrev S16x128x128 : Shape := ⟨3, ![16, 128, 128]⟩
abbrev S_ : Shape := ⟨0, ![]⟩

abbrev nBuf : Space → Nat
  | .hbm => 9
  | .vmem => 14
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S64x1024, .f32⟩
  | .hbm, ⟨3, _⟩ => ⟨S64x1024, .f32⟩
  | .hbm, ⟨4, _⟩ => ⟨S64x1024x1024, .f32⟩
  | .hbm, ⟨5, _⟩ => ⟨S64x1024x1024, .f32⟩
  | .hbm, ⟨6, _⟩ => ⟨S64x1024, .f32⟩
  | .hbm, ⟨7, _⟩ => ⟨S_, .f32⟩
  | .hbm, ⟨8, _⟩ => ⟨S64x1024, .f32⟩
  | .local _ .vmem, ⟨0, _⟩ => ⟨S16x128, .f32⟩
  | .local _ .vmem, ⟨1, _⟩ => ⟨S16x128, .f32⟩
  | .local _ .vmem, ⟨2, _⟩ => ⟨S16x128, .f32⟩
  | .local _ .vmem, ⟨3, _⟩ => ⟨S16x128, .f32⟩
  | .local _ .vmem, ⟨4, _⟩ => ⟨S16x128, .f32⟩
  | .local _ .vmem, ⟨5, _⟩ => ⟨S16x128, .f32⟩
  | .local _ .vmem, ⟨6, _⟩ => ⟨S16x128, .f32⟩
  | .local _ .vmem, ⟨7, _⟩ => ⟨S16x128, .f32⟩
  | .local _ .vmem, ⟨8, _⟩ => ⟨S16x128x1024, .f32⟩
  | .local _ .vmem, ⟨9, _⟩ => ⟨S16x128x1024, .f32⟩
  | .local _ .vmem, ⟨10, _⟩ => ⟨S16x128x1024, .f32⟩
  | .local _ .vmem, ⟨11, _⟩ => ⟨S16x128x1024, .f32⟩
  | .local _ .vmem, ⟨12, _⟩ => ⟨S16x128, .f32⟩
  | .local _ .vmem, ⟨13, _⟩ => ⟨S16x128, .f32⟩
  | _, _ => ⟨S64x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_cst : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def k0_mult1 (i : grid0.Coords) : BitVec 32 :=
  let arg1 : BitVec 32 := BitVec.ofNat 32 (i 1).val
  let c128_i32 : BitVec 32 := 128#32
  let v31 : BitVec 32 := Scalar.muli arg1 c128_i32
  v31
def k0_off1 (i : grid0.Coords) : Fin 3 → Nat :=
  let c0_26 : Index := 0#32
  let c0_27 : Index := 0#32
  let arg1 : BitVec 32 := BitVec.ofNat 32 (i 1).val
  let c128_i32 : BitVec 32 := 128#32
  let v31 : BitVec 32 := Scalar.muli arg1 c128_i32
  let v32 : BitVec 32 := v31
  let v52 : Index := Scalar.indexCast v32
  ![0, 0, v52.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S16x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S16x128_S16x128_0_0 : ∀ a, (![0, 0] : Fin 2 → Nat) a + S16x128.size a ≤ S16x128.size a
  h_S16x128 : 0 < S16x128.numel
  natLt_1_32 : 1 < 32
  iota_S128x128_d0_w32 : S128x128.Iotas .tc 32 [0]
  iota_S128x128_d1_w32 : S128x128.Iotas .tc 32 [1]
  inb_S16x128x1024_S16x128x1024_0_0_0 : ∀ a, (![0, 0, 0] : Fin 3 → Nat) a + S16x128x1024.size a ≤ S16x128x1024.size a
  h_S16x128x1024 : 0 < S16x128x1024.numel
  shapeCasts_S128x128_S1x128x128 : S128x128.ShapeCasts S1x128x128
  shapeCasts_S16x128_S16x128x1 : S16x128.ShapeCasts S16x128x1
  broadcasts_S1x128x128_S16x128x128 : S1x128x128.Broadcasts S16x128x128
  broadcasts_S16x128x1_S16x128x128 : S16x128x1.Broadcasts S16x128x128
  h_S16x128x128 : 0 < S16x128x128.numel
  bcast_S_S64x1024 : S_.BroadcastsInDim S64x1024 (![] : Fin 0 → Fin S64x1024.rank)
  hrank0 : 0 < grid0.rank
  k0_mult1_dvd : ∀ i : grid0.Coords, 128 ∣ (k0_mult1 i).toNat
  k0_off1_inb : ∀ i : grid0.Coords, ∀ a, (k0_off1 i) a + S16x128x128.size a ≤ S16x128x1024.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x128.size a ≤ S64x1024.size a
  hwx0_0 : ∀ i : grid0.Coords, EltTy.bits .f32 = 32 ∨ (Rect.block (s := S64x1024) S16x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S64x1024.size a
  hwx0_1 : ∀ i : grid0.Coords, EltTy.bits .f32 = 32 ∨ (Rect.block (s := S64x1024) S16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x128.size a ≤ S64x1024.size a
  hwx0_2 : ∀ i : grid0.Coords, EltTy.bits .f32 = 32 ∨ (Rect.block (s := S64x1024) S16x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x128.size a ≤ S64x1024.size a
  hwx0_3 : ∀ i : grid0.Coords, EltTy.bits .f32 = 32 ∨ (Rect.block (s := S64x1024) S16x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x128x1024.size a ≤ S64x1024x1024.size a
  hwx0_4 : ∀ i : grid0.Coords, EltTy.bits .f32 = 32 ∨ (Rect.block (s := S64x1024x1024) S16x128x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x128x1024.size a ≤ S64x1024x1024.size a
  hwx0_5 : ∀ i : grid0.Coords, EltTy.bits .f32 = 32 ∨ (Rect.block (s := S64x1024x1024) S16x128x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x128.size a ≤ S64x1024.size a
  hwx0_6 : ∀ i : grid0.Coords, EltTy.bits .f32 = 32 ∨ (Rect.block (s := S64x1024) S16x128.size (cc0_transform_6 i) (hinb0_6 i)).WholeWords (EltTy.packing .f32)

variable [Facts₀]

abbrev win0_0 : Pipeline.Window sig grid0 :=
  Pipeline.Window.ofSpec (Memref.whole main_arg0) S16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S16x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S16x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S16x128x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S16x128x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_4) S16x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x1024 : Shape := ⟨2, ![64, 1024]⟩
abbrev S_ : Shape := ⟨0, ![]⟩
abbrev S1024x1024 : Shape := ⟨2, ![1024, 1024]⟩
abbrev S64x1024x1 : Shape := ⟨3, ![64, 1024, 1]⟩
abbrev S1x1024x1024 : Shape := ⟨3, ![1, 1024, 1024]⟩
abbrev S64x1024x1024 : Shape := ⟨3, ![64, 1024, 1024]⟩

abbrev nBuf : Space → Nat
  | .hbm => 56
  | .vmem => 0
  | .smem => 0
  | _ => 0

abbrev bufTy : (tb : Table) → Fin (tcTables nBuf tb) → BufTy
  | .hbm, ⟨0, _⟩ => ⟨S64x1024, .f32⟩
  | .hbm, ⟨1, _⟩ => ⟨S64x1024, .f32⟩
  | .hbm, ⟨2, _⟩ => ⟨S_, .f32⟩
  | .hbm, ⟨3, _⟩ => ⟨S64x1024, .f32⟩
  | .hbm, ⟨4, _⟩ => ⟨S64x1024, .f32⟩
  | .hbm, ⟨5, _⟩ => ⟨S_, .f32⟩
  | .hbm, ⟨6, _⟩ => ⟨S64x1024, .f32⟩
  | .hbm, ⟨7, _⟩ => ⟨S64x1024, .f32⟩
  | .hbm, ⟨8, _⟩ => ⟨S_, .f32⟩
  | .hbm, ⟨9, _⟩ => ⟨S64x1024, .f32⟩
  | .hbm, ⟨10, _⟩ => ⟨S64x1024, .i1⟩
  | .hbm, ⟨11, _⟩ => ⟨S_, .f32⟩
  | .hbm, ⟨12, _⟩ => ⟨S64x1024, .f32⟩
  | .hbm, ⟨13, _⟩ => ⟨S64x1024, .i1⟩
  | .hbm, ⟨14, _⟩ => ⟨S_, .f32⟩
  | .hbm, ⟨15, _⟩ => ⟨S64x1024, .f32⟩
  | .hbm, ⟨16, _⟩ => ⟨S64x1024, .i1⟩
  | .hbm, ⟨17, _⟩ => ⟨S64x1024, .i1⟩
  | .hbm, ⟨18, _⟩ => ⟨S64x1024, .f32⟩
  | .hbm, ⟨19, _⟩ => ⟨S_, .f32⟩
  | .hbm, ⟨20, _⟩ => ⟨S64x1024, .f32⟩
  | .hbm, ⟨21, _⟩ => ⟨S64x1024, .f32⟩
  | .hbm, ⟨22, _⟩ => ⟨S64x1024, .f32⟩
  | .hbm, ⟨23, _⟩ => ⟨S_, .f32⟩
  | .hbm, ⟨24, _⟩ => ⟨S_, .f32⟩
  | .hbm, ⟨25, _⟩ => ⟨S64x1024, .f32⟩
  | .hbm, ⟨26, _⟩ => ⟨S64x1024, .f32⟩
  | .hbm, ⟨27, _⟩ => ⟨S64x1024, .f32⟩
  | .hbm, ⟨28, _⟩ => ⟨S64x1024, .f32⟩
  | .hbm, ⟨29, _⟩ => ⟨S_, .f32⟩
  | .hbm, ⟨30, _⟩ => ⟨S_, .f32⟩
  | .hbm, ⟨31, _⟩ => ⟨S64x1024, .f32⟩
  | .hbm, ⟨32, _⟩ => ⟨S64x1024, .f32⟩
  | .hbm, ⟨33, _⟩ => ⟨S64x1024, .f32⟩
  | .hbm, ⟨34, _⟩ => ⟨S_, .f32⟩
  | .hbm, ⟨35, _⟩ => ⟨S64x1024, .f32⟩
  | .hbm, ⟨36, _⟩ => ⟨S64x1024, .f32⟩
  | .hbm, ⟨37, _⟩ => ⟨S1024x1024, .i32⟩
  | .hbm, ⟨38, _⟩ => ⟨S1024x1024, .i32⟩
  | .hbm, ⟨39, _⟩ => ⟨S_, .i32⟩
  | .hbm, ⟨40, _⟩ => ⟨S1024x1024, .i32⟩
  | .hbm, ⟨41, _⟩ => ⟨S1024x1024, .i32⟩
  | .hbm, ⟨42, _⟩ => ⟨S1024x1024, .i1⟩
  | .hbm, ⟨43, _⟩ => ⟨S1024x1024, .f32⟩
  | .hbm, ⟨44, _⟩ => ⟨S64x1024x1, .f32⟩
  | .hbm, ⟨45, _⟩ => ⟨S1x1024x1024, .f32⟩
  | .hbm, ⟨46, _⟩ => ⟨S64x1024x1024, .f32⟩
  | .hbm, ⟨47, _⟩ => ⟨S64x1024x1024, .f32⟩
  | .hbm, ⟨48, _⟩ => ⟨S64x1024x1024, .f32⟩
  | .hbm, ⟨49, _⟩ => ⟨S64x1024x1, .f32⟩
  | .hbm, ⟨50, _⟩ => ⟨S1x1024x1024, .f32⟩
  | .hbm, ⟨51, _⟩ => ⟨S64x1024x1024, .f32⟩
  | .hbm, ⟨52, _⟩ => ⟨S64x1024x1024, .f32⟩
  | .hbm, ⟨53, _⟩ => ⟨S64x1024x1024, .f32⟩
  | .hbm, ⟨54, _⟩ => ⟨S_, .f32⟩
  | .hbm, ⟨55, _⟩ => ⟨S64x1024, .f32⟩
  | _, _ => ⟨S64x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_call1_v0 : Ref sig .tc := ⟨.hbm, 30, rfl⟩
abbrev main_call1_v1 : Ref sig .tc := ⟨.hbm, 31, rfl⟩
abbrev main_v18 : Ref sig .tc := ⟨.hbm, 32, rfl⟩
abbrev main_v19 : Ref sig .tc := ⟨.hbm, 33, rfl⟩
abbrev main_cst_7 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  bcast_S_S64x1024 : S_.BroadcastsInDim S64x1024 (![] : Fin 0 → Fin S64x1024.rank)
  bcast_S_S1024x1024 : S_.BroadcastsInDim S1024x1024 (![] : Fin 0 → Fin S1024x1024.rank)
  bcast_S64x1024_S64x1024x1_0_1 : S64x1024.BroadcastsInDim S64x1024x1 (![0, 1] : Fin 2 → Fin S64x1024x1.rank)
  bcast_S1024x1024_S1x1024x1024_1_2 : S1024x1024.BroadcastsInDim S1x1024x1024 (![1, 2] : Fin 2 → Fin S1x1024x1024.rank)
  bcast_S1x1024x1024_S64x1024x1024_0_1_2 : S1x1024x1024.BroadcastsInDim S64x1024x1024 (![0, 1, 2] : Fin 3 → Fin S64x1024x1024.rank)
  bcast_S64x1024x1_S64x1024x1024_0_1_2 : S64x1024x1.BroadcastsInDim S64x1024x1024 (![0, 1, 2] : Fin 3 → Fin S64x1024x1024.rank)

variable [Facts₀]

class Facts : Prop extends Facts₀ where

variable [Facts]
-- ==== Proof.KernelIdealBlocks.lean ====
/-
  What one grid point's body leaves in each output's staging buffer, as a function of the two input blocks
  `l` (the lower bounds) and `u` (the upper bounds) it loaded.

  The three small outputs are each written by one store of the whole block, so the buffer ends at that
  store's value: `max l 0`, `max u 0`, and the bias `select crossing ((0 - λ) · l) 0`.
  Each coefficient output is written twice: first the whole [16, 128, 1024] block with zeros, then the
  [16, 128, 128] sub-block whose columns start at `128 · j` (`j` the point's second coordinate) with
  `eye · diag`. The later store wins where it lands and the zeros remain everywhere else.
-/
import proofs.«109061_j59949153518085_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Blocks

open Cert.KernelIdeal Cert.KernelIdeal.Gen

variable {F : FTy → Type} [FloatOps F]

theorem zeros2 : (![0, 0] : Fin 2 → Nat) = fun _ => 0 := funext fun a => by fin_cases a <;> rfl
theorem zeros3 : (![0, 0, 0] : Fin 3 → Nat) = fun _ => 0 := funext fun a => by fin_cases a <;> rfl

/-- The sub-block of a coefficient block that holds the diagonal: all 16 batch rows, all 128 neurons,
    and the 128 columns starting at `128 · j`. -/
abbrev diagRect (i : grid0.Coords) : Rect S16x128x1024 :=
  Rect.unit (s := S16x128x1024) (k0_off1 i) S16x128x128.size (k0_off1_inb i)

/-- The row numbers `0 … 127` down the rows of a [128, 128] tile. -/
abbrev rowIota : IVec S128x128 32 := iota .tc S128x128 32 [0] iota_S128x128_d0_w32

/-- The concrete lower bound's block is `max l 0`. -/
theorem lowerBound_block (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) :
    out0_A_2 c i a2 h2 a3 h3 a4 h4 a5 h5 a6 h6 a7 h7 a8 h8 x0 x1 = k0_pay6 x0 := by
  unfold out0_A_2
  rw [View.read_writes_eq_canon _ _ _ (cover0_A_2 c i a2 h2 a3 h3 a4 h4 a5 h5 a6 h6 a7 h7 a8 h8 x0 x1)]
  unfold kernelRun0_A
  dsimp only
  rw [View.canon_unit_zero zeros2]
  simp only [View.readAt_eq_ld, h2.read_unread, h3.read_unread, View.ld_unit_zero (S := S16x128) zeros2]

/-- The concrete upper bound's block is `max u 0`. -/
theorem upperBound_block (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) :
    out0_A_3 c i a2 h2 a3 h3 a4 h4 a5 h5 a6 h6 a7 h7 a8 h8 x0 x1 = k0_pay7 x1 := by
  unfold out0_A_3
  rw [View.read_writes_eq_canon _ _ _ (cover0_A_3 c i a2 h2 a3 h3 a4 h4 a5 h5 a6 h6 a7 h7 a8 h8 x0 x1)]
  unfold kernelRun0_A
  dsimp only
  rw [View.canon_unit_zero zeros2]
  simp only [View.readAt_eq_ld, h2.read_unread, h3.read_unread, View.ld_unit_zero (S := S16x128) zeros2]

/-- The upper bias's block is `select crossing ((0 - λ) · l) 0`. -/
theorem upperBias_block (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) :
    out0_A_6 c i a2 h2 a3 h3 a4 h4 a5 h5 a6 h6 a7 h7 a8 h8 x0 x1 = k0_pay11 x0 x1 := by
  unfold out0_A_6
  rw [View.read_writes_eq_canon _ _ _ (cover0_A_6 c i a2 h2 a3 h3 a4 h4 a5 h5 a6 h6 a7 h7 a8 h8 x0 x1)]
  unfold kernelRun0_A
  dsimp only
  rw [View.canon_unit_zero zeros2]
  simp only [View.readAt_eq_ld, h2.read_unread, h3.read_unread, View.ld_unit_zero (S := S16x128) zeros2]

/-- The lower coefficient's block: the diagonal store over the zero fill. -/
theorem lowerCoef_block (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) :
    out0_A_4 c i a2 h2 a3 h3 a4 h4 a5 h5 a6 h6 a7 h7 a8 h8 x0 x1
      = View.canon [⟨diagRect i, k0_pay4 (k0_pay12 x0) rowIota⟩,
          ⟨Rect.unit (s := S16x128x1024) ![0, 0, 0] S16x128x1024.size inb_S16x128x1024_S16x128x1024_0_0_0, k0_pay2⟩] := by
  unfold out0_A_4
  rw [View.read_writes_eq_canon _ _ _ (cover0_A_4 c i a2 h2 a3 h3 a4 h4 a5 h5 a6 h6 a7 h7 a8 h8 x0 x1)]
  unfold kernelRun0_A
  dsimp only
  sl_unfold_words
  simp only [View.readAt_eq_ld, h2.read_unread, h3.read_unread, View.ld_unit_zero (S := S16x128) zeros2]
  rfl

/-- The upper coefficient's block: the diagonal store over the zero fill. -/
theorem upperCoef_block (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) :
    out0_A_5 c i a2 h2 a3 h3 a4 h4 a5 h5 a6 h6 a7 h7 a8 h8 x0 x1
      = View.canon [⟨diagRect i, k0_pay5 (k0_pay13 x0 x1) rowIota⟩,
          ⟨Rect.unit (s := S16x128x1024) ![0, 0, 0] S16x128x1024.size inb_S16x128x1024_S16x128x1024_0_0_0, k0_pay3⟩] := by
  unfold out0_A_5
  rw [View.read_writes_eq_canon _ _ _ (cover0_A_5 c i a2 h2 a3 h3 a4 h4 a5 h5 a6 h6 a7 h7 a8 h8 x0 x1)]
  unfold kernelRun0_A
  dsimp only
  sl_unfold_words
  simp only [View.readAt_eq_ld, h2.read_unread, h3.read_unread, View.ld_unit_zero (S := S16x128) zeros2]
  rfl

/-- Inside the diagonal sub-block the lower coefficient is what the later store put there. -/
theorem lowerCoef_block_diag (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) (x : (diagRect i).shape.Idx) :
    out0_A_4 c i a2 h2 a3 h3 a4 h4 a5 h5 a6 h6 a7 h7 a8 h8 x0 x1 ((diagRect i).emb x) = k0_pay4 (k0_pay12 x0) rowIota x := by
  rw [lowerCoef_block]
  exact View.canon_cons_emb _ _ _ x

/-- Outside it the zero fill remains. -/
theorem lowerCoef_block_off (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) (y : S16x128x1024.Idx) (hy : y ∉ (diagRect i).set) :
    out0_A_4 c i a2 h2 a3 h3 a4 h4 a5 h5 a6 h6 a7 h7 a8 h8 x0 x1 y = k0_pay2 (F := F) y := by
  rw [lowerCoef_block]
  refine (View.canon_cons_of_not_mem
    (⟨diagRect i, k0_pay4 (k0_pay12 x0) rowIota⟩ : View.Piece (Elt F) S16x128x1024 .f32) _ hy).trans ?_
  rw [View.canon_unit_zero zeros3]

/-- Inside the diagonal sub-block the upper coefficient is what the later store put there. -/
theorem upperCoef_block_diag (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) (x : (diagRect i).shape.Idx) :
    out0_A_5 c i a2 h2 a3 h3 a4 h4 a5 h5 a6 h6 a7 h7 a8 h8 x0 x1 ((diagRect i).emb x) = k0_pay5 (k0_pay13 x0 x1) rowIota x := by
  rw [upperCoef_block]
  exact View.canon_cons_emb _ _ _ x

/-- Outside it the zero fill remains. -/
theorem upperCoef_block_off (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec F S16x128 .f32) (y : S16x128x1024.Idx) (hy : y ∉ (diagRect i).set) :
    out0_A_5 c i a2 h2 a3 h3 a4 h4 a5 h5 a6 h6 a7 h7 a8 h8 x0 x1 y = k0_pay3 (F := F) y := by
  rw [upperCoef_block]
  refine (View.canon_cons_of_not_mem
    (⟨diagRect i, k0_pay5 (k0_pay13 x0 x1) rowIota⟩ : View.Piece (Elt F) S16x128x1024 .f32) _ hy).trans ?_
  rw [View.canon_unit_zero zeros3]

end Cert.KernelIdeal.Blocks

end
-- ==== Proof.Scalars.lean ====
/-
  Facts about single numbers that the two programs spell differently.

  * A truth value (one bit) widened to 32 bits and read as a signed integer is the same real number, 0 or 1,
    as the bit read as an unsigned integer.
  * Two naturals below 2³² compare equal as 32-bit words exactly when they are equal.
  * The zero word denotes 0, so `0 - x = -x`, and the false bit converts to 0.
-/
import Idealize.ShloMosaic.PureOps.Ideal
import Idealize.ShloMosaic.PureOps.Ideal.Laws
import Idealize.ShloMosaic.Lib.ValueIdx

noncomputable section

namespace Cert.BoundedRelu

open Idealize.ShloMosaic

/-- A bit is 0 or 1. -/
theorem bit_cases (p : BitVec 1) : p = 0#1 ∨ p = 1#1 := by
  by_cases h : p = 1#1
  · exact Or.inr h
  · exact Or.inl (ValueIdx.eq_zero_of_ne_one h)

/-- Widening a bit to 32 bits and reading it signed gives the bit read unsigned: 0 or 1 either way. -/
theorem sitofp_widen_eq_uitofp (p : BitVec 1) :
    FloatOps.sitofp (F := Ideal) .f32 (p.setWidth 32) = FloatOps.uitofp (F := Ideal) .f32 p := by
  show (((p.setWidth 32).toInt : ℝ) : EReal) = ((p.toNat : ℝ) : EReal)
  rcases bit_cases p with rfl | rfl
  · have e1 : ((0#1 : BitVec 1).setWidth 32).toInt = 0 := by decide
    have e2 : (0#1 : BitVec 1).toNat = 0 := by decide
    rw [e1, e2]; norm_num
  · have e1 : ((1#1 : BitVec 1).setWidth 32).toInt = 1 := by decide
    have e2 : (1#1 : BitVec 1).toNat = 1 := by decide
    rw [e1, e2]; norm_num

/-- The false bit converts to 0. -/
theorem uitofp_false : FloatOps.uitofp (F := Ideal) .f32 (0#1 : BitVec 1) = 0 := by
  show (((0#1 : BitVec 1).toNat : ℝ) : EReal) = 0
  have e2 : (0#1 : BitVec 1).toNat = 0 := by decide
  rw [e2]; norm_num

/-- Naturals below 2³² are equal as 32-bit words exactly when they are equal. -/
theorem cmpi_eq_ofNat (a b : ℕ) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := by
      intro e
      have e' := congrArg BitVec.toNat e
      rw [BitVec.toNat_ofNat, BitVec.toNat_ofNat, Nat.mod_eq_of_lt ha, Nat.mod_eq_of_lt hb] at e'
      exact h e'
    show BitVec.ofBool (BitVec.ofNat 32 a == BitVec.ofNat 32 b) = 0#1
    rw [beq_eq_false_iff_ne.mpr hne]
    rfl

/-- Subtracting from the zero word negates. -/
theorem zero_word_sub (x : EReal) : Ideal.ofBits .f32 0x00000000#32 - x = -x := by
  rw [Ideal.ofBits_zero_f32, sub_eq_add_neg, zero_add]

/-! ## The per-neuron quantities, as functions of one lower bound `l` and one upper bound `u` -/

/-- The zero word, the word of `1e-8` rounded to single precision, and the word of one. -/
abbrev zeroW : Ideal .f32 := FloatOps.ofBits (F := Ideal) .f32 0x00000000#32
abbrev epsW : Ideal .f32 := FloatOps.ofBits (F := Ideal) .f32 0x322BCC77#32
abbrev oneW : Ideal .f32 := FloatOps.ofBits (F := Ideal) .f32 0x3F800000#32

/-- A bound pushed through the ReLU: `max x 0`. -/
def relu (x : Ideal .f32) : Ideal .f32 := FloatOps.maximumf x zeroW

/-- The neuron is active: `l ≥ 0`. -/
def active (l : Ideal .f32) : BitVec 1 := FloatOps.cmpf .oge l zeroW

/-- The neuron crosses zero: `l < 0` and `u > 0`. -/
def crossing (l u : Ideal .f32) : BitVec 1 := IntOp.andi (FloatOps.cmpf .olt l zeroW) (FloatOps.cmpf .ogt u zeroW)

/-- The slope of the upper relaxation: `u / (u - l + ε)` on a crossing neuron, `0` otherwise. -/
def slope (l u : Ideal .f32) : Ideal .f32 :=
  Scalar.select (crossing l u) (FloatOps.hostDivf u (FloatOps.addf (FloatOps.subf u l) epsW)) zeroW

/-- The upper bias: `-slope · l` on a crossing neuron, `0` otherwise. -/
def upperBias (l u : Ideal .f32) : Ideal .f32 :=
  Scalar.select (crossing l u) (FloatOps.mulf (FloatOps.hostNegf (slope l u)) l) zeroW

/-- The lower coefficient's diagonal entry: 1 on an active neuron, 0 otherwise. -/
def lowerDiag (l : Ideal .f32) : Ideal .f32 := FloatOps.uitofp (F := Ideal) .f32 (active l)

/-- The upper coefficient's diagonal entry: 1 on an active neuron, the slope otherwise. -/
def upperDiag (l u : Ideal .f32) : Ideal .f32 := Scalar.select (active l) oneW (slope l u)

/-- The identity matrix's entry at row `r`, column `c`. -/
def eye (r c : ℕ) : Ideal .f32 := FloatOps.uitofp (F := Ideal) .f32 (if r = c then 1#1 else 0#1)

/-- Off the diagonal the identity matrix is 0, and 0 times any extended real is 0. -/
theorem eye_mul_of_ne {r c : ℕ} (h : r ≠ c) (d : Ideal .f32) : FloatOps.mulf (eye r c) d = zeroW := by
  show eye r c * d = Ideal.ofBits .f32 0x00000000#32
  unfold eye
  rw [if_neg h, uitofp_false, Ideal.ofBits_zero_f32]
  exact zero_mul d

/-- The kernel's spelling of the upper bias, with `0 - slope` for the negation. -/
theorem upperBias_zero_sub (l u : Ideal .f32) :
    Scalar.select (crossing l u) (FloatOps.mulf (FloatOps.subf zeroW (slope l u)) l) zeroW = upperBias l u := by
  unfold upperBias
  show Scalar.select (crossing l u) ((Ideal.ofBits .f32 0x00000000#32 - slope l u) * l) zeroW
    = Scalar.select (crossing l u) ((-(slope l u)) * l) zeroW
  rw [zero_word_sub]

/-- The identity entry only depends on whether row and column agree. -/
theorem eye_congr {r c r' c' : ℕ} (h : r = c ↔ r' = c') : eye r c = eye r' c' := by
  unfold eye
  rw [if_congr h rfl rfl]

/-! ## The six results as whole arrays over the [64, 1024] bounds `L` and `U` -/

open Idealize.ShloMosaic.ValueIdx in
/-- The neuron `(B, R)` that a coefficient entry `(B, R, C)` belongs to. -/
abbrev neuronOf (y : (⟨3, ![64, 1024, 1024]⟩ : Shape).Idx) : (⟨2, ![64, 1024]⟩ : Shape).Idx :=
  ix2 (n0 := 64) (n1 := 1024) ⟨(y 0).val, (y 0).isLt⟩ ⟨(y 1).val, (y 1).isLt⟩

def lowerBoundArr (L : (⟨2, ![64, 1024]⟩ : Shape).Idx → Ideal .f32) : (⟨2, ![64, 1024]⟩ : Shape).Idx → Ideal .f32 :=
  fun i => relu (L i)

def upperBoundArr (U : (⟨2, ![64, 1024]⟩ : Shape).Idx → Ideal .f32) : (⟨2, ![64, 1024]⟩ : Shape).Idx → Ideal .f32 :=
  fun i => relu (U i)

def upperBiasArr (L U : (⟨2, ![64, 1024]⟩ : Shape).Idx → Ideal .f32) : (⟨2, ![64, 1024]⟩ : Shape).Idx → Ideal .f32 :=
  fun i => upperBias (L i) (U i)

def lowerBiasArr : (⟨2, ![64, 1024]⟩ : Shape).Idx → Ideal .f32 := fun _ => zeroW

/-- Entry `(B, R, C)` is the identity's `(R, C)` entry times neuron `(B, R)`'s lower diagonal value. -/
def lowerCoefArr (L : (⟨2, ![64, 1024]⟩ : Shape).Idx → Ideal .f32) :
    (⟨3, ![64, 1024, 1024]⟩ : Shape).Idx → Ideal .f32 :=
  fun y => FloatOps.mulf (eye (y 1).val (y 2).val) (lowerDiag (L (neuronOf y)))

/-- Entry `(B, R, C)` is the identity's `(R, C)` entry times neuron `(B, R)`'s upper diagonal value. -/
def upperCoefArr (L U : (⟨2, ![64, 1024]⟩ : Shape).Idx → Ideal .f32) :
    (⟨3, ![64, 1024, 1024]⟩ : Shape).Idx → Ideal .f32 :=
  fun y => FloatOps.mulf (eye (y 1).val (y 2).val) (upperDiag (L (neuronOf y)) (U (neuronOf y)))

end Cert.BoundedRelu

end
-- ==== Proof.LibUnitAxes.lean ====
/-
  Layout operations around a unit axis, read at an index written by coordinates.

  A rank-2 array `[a, b]` cast to `[a, b, 1]` keeps every element where it was (the new axis has one
  coordinate); a broadcast of `[a, b, 1]` to `[a, b, c]` repeats each element along the new last axis; a
  broadcast of `[1, a, b]` to `[m, a, b]` repeats the one slab along the new first axis.
-/
import Idealize.ShloMosaic.Lib.Pipeline.Value
import Idealize.ShloMosaic.Lib.ValueIdx

namespace Idealize.ShloMosaic.ValueIdx

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`. -/
theorem broadcastTo_ab1_abc_apply {a b c : ℕ} (x : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ x h (ix3 i j k) = x (ix3 i j ⟨0, Nat.one_pos⟩) :=
  broadcastTo_apply x h _ _ (fun d => match d with
    | ⟨0, _⟩ => by
        show i.val = if a = 1 then 0 else i.val
        split
        · omega
        · rfl
    | ⟨1, _⟩ => by
        show j.val = if b = 1 then 0 else j.val
        split
        · omega
        · rfl
    | ⟨2, _⟩ => by
        show 0 = if (1 : ℕ) = 1 then 0 else k.val
        rw [if_pos rfl])

/-- A `[1, a, b]` array broadcast to `[m, a, b]` reads, at `(k, i, j)`, the operand at `(0, i, j)`. -/
theorem broadcastTo_1ab_mab_apply {m a b : ℕ} (x : (⟨3, ![1, a, b]⟩ : Shape).Idx → α)
    (h : (⟨3, ![1, a, b]⟩ : Shape).Broadcasts ⟨3, ![m, a, b]⟩) (k : Fin m) (i : Fin a) (j : Fin b) :
    broadcastTo ⟨3, ![m, a, b]⟩ x h (ix3 k i j) = x (ix3 ⟨0, Nat.one_pos⟩ i j) :=
  broadcastTo_apply x h _ _ (fun d => match d with
    | ⟨0, _⟩ => by
        show 0 = if (1 : ℕ) = 1 then 0 else k.val
        rw [if_pos rfl]
    | ⟨1, _⟩ => by
        show i.val = if a = 1 then 0 else i.val
        split
        · omega
        · rfl
    | ⟨2, _⟩ => by
        show j.val = if b = 1 then 0 else j.val
        split
        · omega
        · rfl)

end Idealize.ShloMosaic.ValueIdx
-- ==== Proof.KernelIdealPayloads.lean ====
/-
  The values the kernel's body stores, read at an index as the per-neuron quantities of the two loaded
  blocks `l` and `u` (each [16, 128]: 16 batch rows of 128 neurons).

  The small stores are pointwise. The diagonal tile stored into a coefficient block is, at
  `(b, r, q)` of [16, 128, 128], the [128, 128] identity's entry `(r, q)` times the diagonal value of
  neuron `(b, r)`: the body broadcasts the identity along the batch axis and the diagonal along the
  column axis and multiplies. The fill stored first is the zero word everywhere.
-/
import proofs.«109061_j59949153518085_2_alg».proof.Proof.Gen.KernelIdeal.Skeleton
import proofs.«109061_j59949153518085_2_alg».proof.Proof.KernelIdealBlocks
import proofs.«109061_j59949153518085_2_alg».proof.Proof.Scalars
import proofs.«109061_j59949153518085_2_alg».proof.Proof.LibUnitAxes
import Idealize.ShloMosaic.Lib.ValueIdx
import Idealize.ShloMosaic.Lib.ValueLayout

noncomputable section

namespace Cert.KernelIdeal.Payloads

open Cert.KernelIdeal Cert.KernelIdeal.Gen Cert.KernelIdeal.Blocks Cert.BoundedRelu
open Idealize.ShloMosaic Idealize.ShloMosaic.ValueIdx

variable (l u : Vec Ideal S16x128 .f32)

/-- The concrete lower bound stored at `j` is `max (l j) 0`. -/
theorem lowerBound_apply (j : S16x128.Idx) : k0_pay6 (F := Ideal) l j = relu (l j) := rfl

/-- The concrete upper bound stored at `j` is `max (u j) 0`. -/
theorem upperBound_apply (j : S16x128.Idx) : k0_pay7 (F := Ideal) u j = relu (u j) := rfl

/-- The slope at `j`. -/
theorem slope_apply (j : S16x128.Idx) : k0_pay10 (F := Ideal) l u j = slope (l j) (u j) := rfl

/-- The upper bias stored at `j`: the body negates the slope as `0 - slope`. -/
theorem upperBias_apply (j : S16x128.Idx) : k0_pay11 (F := Ideal) l u j = upperBias (l j) (u j) :=
  upperBias_zero_sub (l j) (u j)

/-- The lower diagonal at `j`: the active bit, widened and converted. -/
theorem lowerDiag_apply (j : S16x128.Idx) : k0_pay12 (F := Ideal) l j = lowerDiag (l j) :=
  sitofp_widen_eq_uitofp (active (l j))

/-- The upper diagonal at `j`. -/
theorem upperDiag_apply (j : S16x128.Idx) : k0_pay13 (F := Ideal) l u j = upperDiag (l j) (u j) := rfl

/-- The [128, 128] identity tile at `(r, q)`: the row number compared with the column number. -/
theorem eyeTile_apply (r q : Fin 128) : k0_pay1 (F := Ideal) rowIota (ix2 r q) = eye r.val q.val := by
  show FloatOps.sitofp (F := Ideal) .f32
    ((IntOp.cmpi .eq (iota .tc S128x128 32 [0] iota_S128x128_d0_w32 (ix2 r q))
      (iota .tc S128x128 32 [1] iota_S128x128_d1_w32 (ix2 r q))).setWidth 32) = _
  rw [iota_single_apply, iota_single_apply, sitofp_widen_eq_uitofp]
  show FloatOps.uitofp (F := Ideal) .f32 (IntOp.cmpi .eq (BitVec.ofNat 32 r.val) (BitVec.ofNat 32 q.val)) = _
  rw [cmpi_eq_ofNat _ _ (Nat.lt_trans r.isLt (by norm_num)) (Nat.lt_trans q.isLt (by norm_num))]
  rfl

/-- The identity tile broadcast along the batch axis, at `(b, r, q)`. -/
theorem eyeBroadcast_apply (b : Fin 16) (r q : Fin 128) :
    broadcastTo S16x128x128 (shapeCast S1x128x128 (k0_pay1 (F := Ideal) rowIota) shapeCasts_S128x128_S1x128x128)
      broadcasts_S1x128x128_S16x128x128 (ix3 b r q) = eye r.val q.val :=
  (broadcastTo_1ab_mab_apply _ _ b r q).trans ((shapeCast_ab_1ab_apply _ _ _ r q).trans (eyeTile_apply r q))

/-- A [16, 128] diagonal broadcast along the column axis, at `(b, r, q)`. -/
theorem diagBroadcast_apply (d : FVec Ideal S16x128 .f32) (b : Fin 16) (r q : Fin 128) :
    broadcastTo S16x128x128 (shapeCast S16x128x1 d shapeCasts_S16x128_S16x128x1)
      broadcasts_S16x128x1_S16x128x128 (ix3 b r q) = d (ix2 b r) :=
  (broadcastTo_ab1_abc_apply _ _ b r q).trans (shapeCast_ab_ab1_apply _ _ b r _)

/-- The tile stored into the lower coefficient, at `(b, r, q)`. -/
theorem lowerTile_apply (b : Fin 16) (r q : Fin 128) :
    k0_pay4 (F := Ideal) (k0_pay12 l) rowIota (ix3 b r q)
      = FloatOps.mulf (eye r.val q.val) (lowerDiag (l (ix2 b r))) := by
  show FloatOps.mulf (F := Ideal) _ _ = _
  exact congrArg₂ FloatOps.mulf (eyeBroadcast_apply b r q)
    ((diagBroadcast_apply (k0_pay12 l) b r q).trans (lowerDiag_apply l (ix2 b r)))

/-- The tile stored into the upper coefficient, at `(b, r, q)`. -/
theorem upperTile_apply (b : Fin 16) (r q : Fin 128) :
    k0_pay5 (F := Ideal) (k0_pay13 l u) rowIota (ix3 b r q)
      = FloatOps.mulf (eye r.val q.val) (upperDiag (l (ix2 b r)) (u (ix2 b r))) := by
  show FloatOps.mulf (F := Ideal) _ _ = _
  exact congrArg₂ FloatOps.mulf (eyeBroadcast_apply b r q)
    ((diagBroadcast_apply (k0_pay13 l u) b r q).trans (upperDiag_apply l u (ix2 b r)))

/-- The fill stored first is the zero word. -/
theorem lowerFill_apply (y : S16x128x1024.Idx) : k0_pay2 (F := Ideal) y = zeroW := rfl
theorem upperFill_apply (y : S16x128x1024.Idx) : k0_pay3 (F := Ideal) y = zeroW := rfl

end Cert.KernelIdeal.Payloads

end
-- ==== Proof.KernelIdealEntries.lean ====
/-
  A coefficient block read entry by entry.

  At grid point `(i, j)` the block covers batch rows `16·i …`, neurons `128·j …` and all 1024 columns.
  Its entry `(b, r, c)` lies in the stored diagonal tile exactly when `128·j ≤ c < 128·j + 128`. There
  it is the tile's entry `(r, c - 128·j)`, the identity compared at `r` against `c - 128·j`, which is
  the same comparison as `128·j + r` against `c`. Elsewhere it is the zero fill, and `128·j + r ≠ c`
  because `r < 128`, so the identity entry is 0 there and the product with any extended real is 0 too.
  Either way the entry is `eye (128·j + r) c · diag (b, r)`.
-/
import proofs.«109061_j59949153518085_2_alg».proof.Proof.KernelIdealBlocks
import proofs.«109061_j59949153518085_2_alg».proof.Proof.KernelIdealPayloads
import proofs.«109061_j59949153518085_2_alg».proof.Proof.Scalars

noncomputable section

namespace Cert.KernelIdeal.Entries

open Cert.KernelIdeal Cert.KernelIdeal.Gen Cert.KernelIdeal.Blocks Cert.KernelIdeal.Payloads Cert.BoundedRelu
open Idealize.ShloMosaic Idealize.ShloMosaic.ValueIdx

/-- Where the diagonal tile's entry `(b, r, q)` sits in the block: at column `128·j + q`. -/
theorem diag_emb (i : grid0.Coords) (j1 : ℕ) (hoff : k0_off1 i = ![0, 0, 128 * j1])
    (b : Fin 16) (r : Fin 128) (cc : Fin 1024) (hq : cc.val - 128 * j1 < 128) (hlo : 128 * j1 ≤ cc.val) :
    (diagRect i).emb (ix3 b r ⟨cc.val - 128 * j1, hq⟩) = ix3 b r cc := by
  funext a
  apply Fin.ext
  rw [Rect.emb_apply]
  show k0_off1 i a + 1 * _ = _
  rw [hoff]
  match a with
  | ⟨0, _⟩ => show 0 + 1 * b.val = b.val; omega
  | ⟨1, _⟩ => show 0 + 1 * r.val = r.val; omega
  | ⟨2, _⟩ => show 128 * j1 + 1 * (cc.val - 128 * j1) = cc.val; omega

/-- An entry whose column is outside `[128·j, 128·j + 128)` is outside the diagonal tile. -/
theorem not_mem_diag (i : grid0.Coords) (j1 : ℕ) (hoff : k0_off1 i = ![0, 0, 128 * j1])
    (b : Fin 16) (r : Fin 128) (cc : Fin 1024) (hc : ¬(128 * j1 ≤ cc.val ∧ cc.val < 128 * j1 + 128)) :
    ix3 b r cc ∉ (diagRect i).set := by
  intro hm
  have h2 := (Rect.mem_set_unit.mp hm) ⟨2, by decide⟩
  rw [hoff] at h2
  exact hc h2

/-- The lower coefficient block's entry `(b, r, c)`. -/
theorem lowerCoef_entry (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec Ideal S16x128 .f32) (j1 : ℕ) (hoff : k0_off1 i = ![0, 0, 128 * j1])
    (b : Fin 16) (r : Fin 128) (cc : Fin 1024) :
    out0_A_4 c i a2 h2 a3 h3 a4 h4 a5 h5 a6 h6 a7 h7 a8 h8 x0 x1 (ix3 b r cc)
      = FloatOps.mulf (eye (128 * j1 + r.val) cc.val) (lowerDiag (x0 (ix2 b r))) := by
  have hr : r.val < 128 := r.isLt
  by_cases hc : 128 * j1 ≤ cc.val ∧ cc.val < 128 * j1 + 128
  · have hq : cc.val - 128 * j1 < 128 := by omega
    refine (congrArg (out0_A_4 c i a2 h2 a3 h3 a4 h4 a5 h5 a6 h6 a7 h7 a8 h8 x0 x1) (diag_emb i j1 hoff b r cc hq hc.1).symm).trans ?_
    refine (lowerCoef_block_diag c i a2 h2 a3 h3 a4 h4 a5 h5 a6 h6 a7 h7 a8 h8 x0 x1 _).trans ?_
    refine (lowerTile_apply x0 b r _).trans ?_
    exact congrArg (fun e => FloatOps.mulf e (lowerDiag (x0 (ix2 b r))))
      (eye_congr (by show r.val = cc.val - 128 * j1 ↔ 128 * j1 + r.val = cc.val; omega))
  · refine (lowerCoef_block_off c i a2 h2 a3 h3 a4 h4 a5 h5 a6 h6 a7 h7 a8 h8 x0 x1 _ (not_mem_diag i j1 hoff b r cc hc)).trans ?_
    exact (eye_mul_of_ne (by omega) _).symm

/-- The upper coefficient block's entry `(b, r, c)`. -/
theorem upperCoef_entry (c : Dev nD) (i : grid0.Coords) (a2 : Memref sig .tc .vmem S16x128 .f32) (h2 : a2.IsWhole) (a3 : Memref sig .tc .vmem S16x128 .f32) (h3 : a3.IsWhole) (a4 : Memref sig .tc .vmem S16x128 .f32) (h4 : a4.IsWhole) (a5 : Memref sig .tc .vmem S16x128 .f32) (h5 : a5.IsWhole) (a6 : Memref sig .tc .vmem S16x128x1024 .f32) (h6 : a6.IsWhole) (a7 : Memref sig .tc .vmem S16x128x1024 .f32) (h7 : a7.IsWhole) (a8 : Memref sig .tc .vmem S16x128 .f32) (h8 : a8.IsWhole)
    (x0 x1 : Vec Ideal S16x128 .f32) (j1 : ℕ) (hoff : k0_off1 i = ![0, 0, 128 * j1])
    (b : Fin 16) (r : Fin 128) (cc : Fin 1024) :
    out0_A_5 c i a2 h2 a3 h3 a4 h4 a5 h5 a6 h6 a7 h7 a8 h8 x0 x1 (ix3 b r cc)
      = FloatOps.mulf (eye (128 * j1 + r.val) cc.val) (upperDiag (x0 (ix2 b r)) (x1 (ix2 b r))) := by
  have hr : r.val < 128 := r.isLt
  by_cases hc : 128 * j1 ≤ cc.val ∧ cc.val < 128 * j1 + 128
  · have hq : cc.val - 128 * j1 < 128 := by omega
    refine (congrArg (out0_A_5 c i a2 h2 a3 h3 a4 h4 a5 h5 a6 h6 a7 h7 a8 h8 x0 x1) (diag_emb i j1 hoff b r cc hq hc.1).symm).trans ?_
    refine (upperCoef_block_diag c i a2 h2 a3 h3 a4 h4 a5 h5 a6 h6 a7 h7 a8 h8 x0 x1 _).trans ?_
    refine (upperTile_apply x0 x1 b r _).trans ?_
    exact congrArg (fun e => FloatOps.mulf e (upperDiag (x0 (ix2 b r)) (x1 (ix2 b r))))
      (eye_congr (by show r.val = cc.val - 128 * j1 ↔ 128 * j1 + r.val = cc.val; omega))
  · refine (upperCoef_block_off c i a2 h2 a3 h3 a4 h4 a5 h5 a6 h6 a7 h7 a8 h8 x0 x1 _ (not_mem_diag i j1 hoff b r cc hc)).trans ?_
    exact (eye_mul_of_ne (by omega) _).symm

end Cert.KernelIdeal.Entries

end
-- ==== Proof.KernelIdealArrays.lean ====
/-
  From blocks to arrays: what each result array of the kernel holds after the run, as one function of the
  two argument arrays.

  The grid is 4 × 8. Point `(i, j)` handles batch rows `16·i … 16·i + 15` and neurons
  `128·j … 128·j + 127`: every window's block index is `(i, j)` (the coefficient windows' third index is
  0, their blocks span all 1024 columns), and the diagonal tile is stored at column offset `128·j`. The
  blocks of each output tile its array, each point writes into its block the restriction of one
  whole-array function, so the array ends as that function. The sixth result, the lower bias, is written
  after the kernel by two host operations: a zero constant broadcast to [64, 1024].
-/
import proofs.«109061_j59949153518085_2_alg».proof.Proof.Gen.KernelIdeal.Frame
import proofs.«109061_j59949153518085_2_alg».proof.Proof.KernelIdealBlocks
import proofs.«109061_j59949153518085_2_alg».proof.Proof.KernelIdealPayloads
import proofs.«109061_j59949153518085_2_alg».proof.Proof.KernelIdealEntries
import proofs.«109061_j59949153518085_2_alg».proof.Proof.Scalars
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Arrays

open Cert.KernelIdeal Cert.KernelIdeal.Gen Cert.KernelIdeal.Blocks Cert.KernelIdeal.Payloads Cert.KernelIdeal.Entries
open Cert.BoundedRelu Idealize.ShloMosaic.ValueIdx

variable (m : (ℓ : Loc nD τ sig) → Buf (Elt Ideal) ℓ) (ρ : Dev nD → PrngReg)

/-! ## The index maps, decided over the 32 grid points -/

theorem coords_lt : ∀ t : Fin cfg0.N, (grid0.coords t 0).val < 4 ∧ (grid0.coords t 1).val < 8 :=
  (by decide +kernel : ∀ t : Fin grid0.N, _)

/-- The diagonal tile's offsets: column `128·j`. -/
theorem off_eq : ∀ t : Fin cfg0.N, k0_off1 (grid0.coords t) = ![0, 0, 128 * (grid0.coords t 1).val] :=
  (by decide +kernel : ∀ t : Fin grid0.N, _)

theorem idx0 : ∀ t : Fin cfg0.N, win0_0.index t (0 : Fin 2) = (grid0.coords t 0).val ∧ win0_0.index t (1 : Fin 2) = (grid0.coords t 1).val :=
  (by decide +kernel : ∀ t : Fin grid0.N, _)
theorem idx1 : ∀ t : Fin cfg0.N, win0_1.index t (0 : Fin 2) = (grid0.coords t 0).val ∧ win0_1.index t (1 : Fin 2) = (grid0.coords t 1).val :=
  (by decide +kernel : ∀ t : Fin grid0.N, _)
theorem idx2 : ∀ t : Fin cfg0.N, win0_2.index t (0 : Fin 2) = (grid0.coords t 0).val ∧ win0_2.index t (1 : Fin 2) = (grid0.coords t 1).val :=
  (by decide +kernel : ∀ t : Fin grid0.N, _)
theorem idx3 : ∀ t : Fin cfg0.N, win0_3.index t (0 : Fin 2) = (grid0.coords t 0).val ∧ win0_3.index t (1 : Fin 2) = (grid0.coords t 1).val :=
  (by decide +kernel : ∀ t : Fin grid0.N, _)
theorem idx6 : ∀ t : Fin cfg0.N, win0_6.index t (0 : Fin 2) = (grid0.coords t 0).val ∧ win0_6.index t (1 : Fin 2) = (grid0.coords t 1).val :=
  (by decide +kernel : ∀ t : Fin grid0.N, _)
theorem idx4 : ∀ t : Fin cfg0.N, win0_4.index t (0 : Fin 3) = (grid0.coords t 0).val ∧ win0_4.index t (1 : Fin 3) = (grid0.coords t 1).val ∧ win0_4.index t (2 : Fin 3) = 0 :=
  (by decide +kernel : ∀ t : Fin grid0.N, _)
theorem idx5 : ∀ t : Fin cfg0.N, win0_5.index t (0 : Fin 3) = (grid0.coords t 0).val ∧ win0_5.index t (1 : Fin 3) = (grid0.coords t 1).val ∧ win0_5.index t (2 : Fin 3) = 0 :=
  (by decide +kernel : ∀ t : Fin grid0.N, _)

/-- Every pair `(i, j)` is some point's coordinates. -/
theorem onto : ∀ (q0 : Fin 4) (q1 : Fin 8), ∃ t : Fin cfg0.N, (grid0.coords t 0).val = q0.val ∧ (grid0.coords t 1).val = q1.val :=
  (by decide +kernel : ∀ (q0 : Fin 4) (q1 : Fin 8), ∃ t : Fin grid0.N, (grid0.coords t 0).val = q0.val ∧ (grid0.coords t 1).val = q1.val)

/-! ## The concrete lower bound -/

/-- An index of the [64, 1024] array is in point `t`'s block of window 2 iff each coordinate is in the block's range. -/
theorem mem_blk2 (t : Fin cfg0.N) (i : S64x1024.Idx) :
    i ∈ ((cfg0.win 2).blk t).view.set ↔ ∀ a : Fin 2, win0_2.index t a * S16x128.size a ≤ (i a).val ∧ (i a).val < win0_2.index t a * S16x128.size a + S16x128.size a := by
  show i ∈ ((View.whole main_v0_0).slice (win0_2.rect t)).set ↔ _
  rw [View.set_slice_whole, Rect.mem_set_unit]
  exact Iff.rfl

/-- Every neuron `(B, R)` is in the block of the point `(B / 16, R / 128)`. -/
theorem cover2 (i : S64x1024.Idx) : ∃ t : Fin cfg0.N, (cfg0.win 2).flush t = true ∧ i ∈ ((cfg0.win 2).blk t).view.set := by
  have hi0 : (i 0).val < 64 := (i 0).isLt
  have hi1 : (i 1).val < 1024 := (i 1).isLt
  obtain ⟨t, h0, h1⟩ := onto ⟨(i 0).val / 16, by omega⟩ ⟨(i 1).val / 128, by omega⟩
  have h0' : (grid0.coords t 0).val = (i 0).val / 16 := h0
  have h1' : (grid0.coords t 1).val = (i 1).val / 128 := h1
  obtain ⟨e0, e1⟩ := idx2 t
  refine ⟨t, flush0_2 t, ?_⟩
  rw [mem_blk2]
  intro a
  match a with
  | ⟨0, _⟩ => show win0_2.index t (0 : Fin 2) * 16 ≤ (i 0).val ∧ (i 0).val < win0_2.index t (0 : Fin 2) * 16 + 16; omega
  | ⟨1, _⟩ => show win0_2.index t (1 : Fin 2) * 128 ≤ (i 1).val ∧ (i 1).val < win0_2.index t (1 : Fin 2) * 128 + 128; omega

/-- An input block and window 2's block sit at the same place of their [64, 1024] arrays. -/
theorem emb0_2 (t : Fin cfg0.N) (j : S16x128.Idx) : ((cfg0.win 0).blk t).view.emb j = ((cfg0.win 2).blk t).view.emb j := by
  obtain ⟨a0, a1⟩ := idx0 t
  obtain ⟨e0, e1⟩ := idx2 t
  funext a; apply Fin.ext
  match a with
  | ⟨0, _⟩ => show win0_0.index t (0 : Fin 2) * 16 + 1 * (j 0).val = win0_2.index t (0 : Fin 2) * 16 + 1 * (j 0).val; omega
  | ⟨1, _⟩ => show win0_0.index t (1 : Fin 2) * 128 + 1 * (j 1).val = win0_2.index t (1 : Fin 2) * 128 + 1 * (j 1).val; omega
theorem emb1_2 (t : Fin cfg0.N) (j : S16x128.Idx) : ((cfg0.win 1).blk t).view.emb j = ((cfg0.win 2).blk t).view.emb j := by
  obtain ⟨a0, a1⟩ := idx1 t
  obtain ⟨e0, e1⟩ := idx2 t
  funext a; apply Fin.ext
  match a with
  | ⟨0, _⟩ => show win0_1.index t (0 : Fin 2) * 16 + 1 * (j 0).val = win0_2.index t (0 : Fin 2) * 16 + 1 * (j 0).val; omega
  | ⟨1, _⟩ => show win0_1.index t (1 : Fin 2) * 128 + 1 * (j 1).val = win0_2.index t (1 : Fin 2) * 128 + 1 * (j 1).val; omega

/-- What point `t` writes back through window 2 is block `t` of the lowerBound array. -/
theorem lowerBound_flushed (c : Dev nD) (t : Fin cfg0.N) :
    (dats m 0 c).flushed 2 t = ((cfg0.win 2).blk t).view.read (Elt Ideal) (lowerBoundArr (V m c main_arg0)) := by
  show (cfg0.win 2).cut (grid0.coords t) ((dats m 0 c).after 2 t) = _
  rw [after0_2]
  show (cfg0.win 2).cut (grid0.coords t) (out0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t)) = _
  rw [lowerBound_block]
  funext j
  show relu (V m c main_arg0 (((cfg0.win 0).blk t).view.emb j)) = relu (V m c main_arg0 (((cfg0.win 2).blk t).view.emb j))
  rw [emb0_2 t j]

/-- So the lowerBound array ends as that function of the argument arrays. -/
theorem lowerBound_final (c : Dev nD) : (dats m 0 c).arrAt 2 cfg0.N = lowerBoundArr (V m c main_arg0) :=
  (dats m 0 c).arrAt_eq_of_cover 2 _ (fun t _ => lowerBound_flushed m c t) cover2

/-! ## The concrete upper bound -/

/-- An index of the [64, 1024] array is in point `t`'s block of window 3 iff each coordinate is in the block's range. -/
theorem mem_blk3 (t : Fin cfg0.N) (i : S64x1024.Idx) :
    i ∈ ((cfg0.win 3).blk t).view.set ↔ ∀ a : Fin 2, win0_3.index t a * S16x128.size a ≤ (i a).val ∧ (i a).val < win0_3.index t a * S16x128.size a + S16x128.size a := by
  show i ∈ ((View.whole main_v0_1).slice (win0_3.rect t)).set ↔ _
  rw [View.set_slice_whole, Rect.mem_set_unit]
  exact Iff.rfl

/-- Every neuron `(B, R)` is in the block of the point `(B / 16, R / 128)`. -/
theorem cover3 (i : S64x1024.Idx) : ∃ t : Fin cfg0.N, (cfg0.win 3).flush t = true ∧ i ∈ ((cfg0.win 3).blk t).view.set := by
  have hi0 : (i 0).val < 64 := (i 0).isLt
  have hi1 : (i 1).val < 1024 := (i 1).isLt
  obtain ⟨t, h0, h1⟩ := onto ⟨(i 0).val / 16, by omega⟩ ⟨(i 1).val / 128, by omega⟩
  have h0' : (grid0.coords t 0).val = (i 0).val / 16 := h0
  have h1' : (grid0.coords t 1).val = (i 1).val / 128 := h1
  obtain ⟨e0, e1⟩ := idx3 t
  refine ⟨t, flush0_3 t, ?_⟩
  rw [mem_blk3]
  intro a
  match a with
  | ⟨0, _⟩ => show win0_3.index t (0 : Fin 2) * 16 ≤ (i 0).val ∧ (i 0).val < win0_3.index t (0 : Fin 2) * 16 + 16; omega
  | ⟨1, _⟩ => show win0_3.index t (1 : Fin 2) * 128 ≤ (i 1).val ∧ (i 1).val < win0_3.index t (1 : Fin 2) * 128 + 128; omega

/-- An input block and window 3's block sit at the same place of their [64, 1024] arrays. -/
theorem emb0_3 (t : Fin cfg0.N) (j : S16x128.Idx) : ((cfg0.win 0).blk t).view.emb j = ((cfg0.win 3).blk t).view.emb j := by
  obtain ⟨a0, a1⟩ := idx0 t
  obtain ⟨e0, e1⟩ := idx3 t
  funext a; apply Fin.ext
  match a with
  | ⟨0, _⟩ => show win0_0.index t (0 : Fin 2) * 16 + 1 * (j 0).val = win0_3.index t (0 : Fin 2) * 16 + 1 * (j 0).val; omega
  | ⟨1, _⟩ => show win0_0.index t (1 : Fin 2) * 128 + 1 * (j 1).val = win0_3.index t (1 : Fin 2) * 128 + 1 * (j 1).val; omega
theorem emb1_3 (t : Fin cfg0.N) (j : S16x128.Idx) : ((cfg0.win 1).blk t).view.emb j = ((cfg0.win 3).blk t).view.emb j := by
  obtain ⟨a0, a1⟩ := idx1 t
  obtain ⟨e0, e1⟩ := idx3 t
  funext a; apply Fin.ext
  match a with
  | ⟨0, _⟩ => show win0_1.index t (0 : Fin 2) * 16 + 1 * (j 0).val = win0_3.index t (0 : Fin 2) * 16 + 1 * (j 0).val; omega
  | ⟨1, _⟩ => show win0_1.index t (1 : Fin 2) * 128 + 1 * (j 1).val = win0_3.index t (1 : Fin 2) * 128 + 1 * (j 1).val; omega

/-- What point `t` writes back through window 3 is block `t` of the upperBound array. -/
theorem upperBound_flushed (c : Dev nD) (t : Fin cfg0.N) :
    (dats m 0 c).flushed 3 t = ((cfg0.win 3).blk t).view.read (Elt Ideal) (upperBoundArr (V m c main_arg1)) := by
  show (cfg0.win 3).cut (grid0.coords t) ((dats m 0 c).after 3 t) = _
  rw [after0_3]
  show (cfg0.win 3).cut (grid0.coords t) (out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t)) = _
  rw [upperBound_block]
  funext j
  show relu (V m c main_arg1 (((cfg0.win 1).blk t).view.emb j)) = relu (V m c main_arg1 (((cfg0.win 3).blk t).view.emb j))
  rw [emb1_3 t j]

/-- So the upperBound array ends as that function of the argument arrays. -/
theorem upperBound_final (c : Dev nD) : (dats m 0 c).arrAt 3 cfg0.N = upperBoundArr (V m c main_arg1) :=
  (dats m 0 c).arrAt_eq_of_cover 3 _ (fun t _ => upperBound_flushed m c t) cover3

/-! ## The upper bias -/

/-- An index of the [64, 1024] array is in point `t`'s block of window 6 iff each coordinate is in the block's range. -/
theorem mem_blk6 (t : Fin cfg0.N) (i : S64x1024.Idx) :
    i ∈ ((cfg0.win 6).blk t).view.set ↔ ∀ a : Fin 2, win0_6.index t a * S16x128.size a ≤ (i a).val ∧ (i a).val < win0_6.index t a * S16x128.size a + S16x128.size a := by
  show i ∈ ((View.whole main_v0_4).slice (win0_6.rect t)).set ↔ _
  rw [View.set_slice_whole, Rect.mem_set_unit]
  exact Iff.rfl

/-- Every neuron `(B, R)` is in the block of the point `(B / 16, R / 128)`. -/
theorem cover6 (i : S64x1024.Idx) : ∃ t : Fin cfg0.N, (cfg0.win 6).flush t = true ∧ i ∈ ((cfg0.win 6).blk t).view.set := by
  have hi0 : (i 0).val < 64 := (i 0).isLt
  have hi1 : (i 1).val < 1024 := (i 1).isLt
  obtain ⟨t, h0, h1⟩ := onto ⟨(i 0).val / 16, by omega⟩ ⟨(i 1).val / 128, by omega⟩
  have h0' : (grid0.coords t 0).val = (i 0).val / 16 := h0
  have h1' : (grid0.coords t 1).val = (i 1).val / 128 := h1
  obtain ⟨e0, e1⟩ := idx6 t
  refine ⟨t, flush0_6 t, ?_⟩
  rw [mem_blk6]
  intro a
  match a with
  | ⟨0, _⟩ => show win0_6.index t (0 : Fin 2) * 16 ≤ (i 0).val ∧ (i 0).val < win0_6.index t (0 : Fin 2) * 16 + 16; omega
  | ⟨1, _⟩ => show win0_6.index t (1 : Fin 2) * 128 ≤ (i 1).val ∧ (i 1).val < win0_6.index t (1 : Fin 2) * 128 + 128; omega

/-- An input block and window 6's block sit at the same place of their [64, 1024] arrays. -/
theorem emb0_6 (t : Fin cfg0.N) (j : S16x128.Idx) : ((cfg0.win 0).blk t).view.emb j = ((cfg0.win 6).blk t).view.emb j := by
  obtain ⟨a0, a1⟩ := idx0 t
  obtain ⟨e0, e1⟩ := idx6 t
  funext a; apply Fin.ext
  match a with
  | ⟨0, _⟩ => show win0_0.index t (0 : Fin 2) * 16 + 1 * (j 0).val = win0_6.index t (0 : Fin 2) * 16 + 1 * (j 0).val; omega
  | ⟨1, _⟩ => show win0_0.index t (1 : Fin 2) * 128 + 1 * (j 1).val = win0_6.index t (1 : Fin 2) * 128 + 1 * (j 1).val; omega
theorem emb1_6 (t : Fin cfg0.N) (j : S16x128.Idx) : ((cfg0.win 1).blk t).view.emb j = ((cfg0.win 6).blk t).view.emb j := by
  obtain ⟨a0, a1⟩ := idx1 t
  obtain ⟨e0, e1⟩ := idx6 t
  funext a; apply Fin.ext
  match a with
  | ⟨0, _⟩ => show win0_1.index t (0 : Fin 2) * 16 + 1 * (j 0).val = win0_6.index t (0 : Fin 2) * 16 + 1 * (j 0).val; omega
  | ⟨1, _⟩ => show win0_1.index t (1 : Fin 2) * 128 + 1 * (j 1).val = win0_6.index t (1 : Fin 2) * 128 + 1 * (j 1).val; omega

/-- What point `t` writes back through window 6 is block `t` of the upperBias array. -/
theorem upperBias_flushed (c : Dev nD) (t : Fin cfg0.N) :
    (dats m 0 c).flushed 6 t = ((cfg0.win 6).blk t).view.read (Elt Ideal) (upperBiasArr (V m c main_arg0) (V m c main_arg1)) := by
  show (cfg0.win 6).cut (grid0.coords t) ((dats m 0 c).after 6 t) = _
  rw [after0_6]
  show (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t)) = _
  rw [upperBias_block]
  funext j
  show k0_pay11 (F := Ideal) (iblk m c 0 t) (iblk m c 1 t) j = upperBias (V m c main_arg0 (((cfg0.win 6).blk t).view.emb j)) (V m c main_arg1 (((cfg0.win 6).blk t).view.emb j))
  refine (upperBias_apply (iblk m c 0 t) (iblk m c 1 t) j).trans ?_
  show upperBias (V m c main_arg0 (((cfg0.win 0).blk t).view.emb j)) (V m c main_arg1 (((cfg0.win 1).blk t).view.emb j)) = _
  rw [emb0_6 t j, emb1_6 t j]

/-- So the upperBias array ends as that function of the argument arrays. -/
theorem upperBias_final (c : Dev nD) : (dats m 0 c).arrAt 6 cfg0.N = upperBiasArr (V m c main_arg0) (V m c main_arg1) :=
  (dats m 0 c).arrAt_eq_of_cover 6 _ (fun t _ => upperBias_flushed m c t) cover6

/-! ## The lower coefficient -/

/-- An index of the [64, 1024, 1024] array is in point `t`'s block of window 4 iff each coordinate is in the block's range. -/
theorem mem_blk4 (t : Fin cfg0.N) (i : S64x1024x1024.Idx) :
    i ∈ ((cfg0.win 4).blk t).view.set ↔ ∀ a : Fin 3, win0_4.index t a * S16x128x1024.size a ≤ (i a).val ∧ (i a).val < win0_4.index t a * S16x128x1024.size a + S16x128x1024.size a := by
  show i ∈ ((View.whole main_v0_2).slice (win0_4.rect t)).set ↔ _
  rw [View.set_slice_whole, Rect.mem_set_unit]
  exact Iff.rfl

/-- Every entry `(B, R, C)` is in the block of the point `(B / 16, R / 128)`, which spans all columns. -/
theorem cover4 (i : S64x1024x1024.Idx) : ∃ t : Fin cfg0.N, (cfg0.win 4).flush t = true ∧ i ∈ ((cfg0.win 4).blk t).view.set := by
  have hi0 : (i 0).val < 64 := (i 0).isLt
  have hi1 : (i 1).val < 1024 := (i 1).isLt
  have hi2 : (i 2).val < 1024 := (i 2).isLt
  obtain ⟨t, h0, h1⟩ := onto ⟨(i 0).val / 16, by omega⟩ ⟨(i 1).val / 128, by omega⟩
  have h0' : (grid0.coords t 0).val = (i 0).val / 16 := h0
  have h1' : (grid0.coords t 1).val = (i 1).val / 128 := h1
  obtain ⟨e0, e1, e2⟩ := idx4 t
  refine ⟨t, flush0_4 t, ?_⟩
  rw [mem_blk4]
  intro a
  match a with
  | ⟨0, _⟩ => show win0_4.index t (0 : Fin 3) * 16 ≤ (i 0).val ∧ (i 0).val < win0_4.index t (0 : Fin 3) * 16 + 16; omega
  | ⟨1, _⟩ => show win0_4.index t (1 : Fin 3) * 128 ≤ (i 1).val ∧ (i 1).val < win0_4.index t (1 : Fin 3) * 128 + 128; omega
  | ⟨2, _⟩ => show win0_4.index t (2 : Fin 3) * 1024 ≤ (i 2).val ∧ (i 2).val < win0_4.index t (2 : Fin 3) * 1024 + 1024; omega

/-- Neuron `(b, r)` of an input block is the neuron that entry `(b, r, c)` of window 4's block belongs to. -/
theorem neuron0_4 (t : Fin cfg0.N) (b : Fin 16) (r : Fin 128) (cc : Fin 1024) :
    ((cfg0.win 0).blk t).view.emb (ix2 b r) = neuronOf (((cfg0.win 4).blk t).view.emb (ix3 b r cc)) := by
  obtain ⟨a0, a1⟩ := idx0 t
  obtain ⟨e0, e1, e2⟩ := idx4 t
  funext a; apply Fin.ext
  match a with
  | ⟨0, _⟩ => show win0_0.index t (0 : Fin 2) * 16 + 1 * b.val = win0_4.index t (0 : Fin 3) * 16 + 1 * b.val; omega
  | ⟨1, _⟩ => show win0_0.index t (1 : Fin 2) * 128 + 1 * r.val = win0_4.index t (1 : Fin 3) * 128 + 1 * r.val; omega
theorem neuron1_4 (t : Fin cfg0.N) (b : Fin 16) (r : Fin 128) (cc : Fin 1024) :
    ((cfg0.win 1).blk t).view.emb (ix2 b r) = neuronOf (((cfg0.win 4).blk t).view.emb (ix3 b r cc)) := by
  obtain ⟨a0, a1⟩ := idx1 t
  obtain ⟨e0, e1, e2⟩ := idx4 t
  funext a; apply Fin.ext
  match a with
  | ⟨0, _⟩ => show win0_1.index t (0 : Fin 2) * 16 + 1 * b.val = win0_4.index t (0 : Fin 3) * 16 + 1 * b.val; omega
  | ⟨1, _⟩ => show win0_1.index t (1 : Fin 2) * 128 + 1 * r.val = win0_4.index t (1 : Fin 3) * 128 + 1 * r.val; omega

/-- What point `t` writes back through window 4 is block `t` of the lowerCoef array. -/
theorem lowerCoef_flushed (c : Dev nD) (t : Fin cfg0.N) :
    (dats m 0 c).flushed 4 t = ((cfg0.win 4).blk t).view.read (Elt Ideal) (lowerCoefArr (V m c main_arg0)) := by
  show (cfg0.win 4).cut (grid0.coords t) ((dats m 0 c).after 4 t) = _
  rw [after0_4]
  unfold outsAt0
  dsimp only
  obtain ⟨e0, e1, e2⟩ := idx4 t
  funext y
  obtain ⟨b, r, cc, rfl⟩ : ∃ (b : Fin 16) (r : Fin 128) (cc : Fin 1024), y = ix3 b r cc := ⟨y 0, y 1, y 2, eq_ix3 y⟩
  have hx : (cfg0.win 4).xinj (grid0.coords t) (ix3 b r cc) = ix3 b r cc := rfl
  refine (congrArg (out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t)) hx).trans ?_
  refine (lowerCoef_entry c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (grid0.coords t 1).val (off_eq t) b r cc).trans ?_
  show _ = lowerCoefArr (V m c main_arg0) (((cfg0.win 4).blk t).view.emb (ix3 b r cc))
  have hrow : ((((cfg0.win 4).blk t).view.emb (ix3 b r cc)) 1).val = 128 * (grid0.coords t 1).val + r.val := by
    show win0_4.index t (1 : Fin 3) * 128 + 1 * r.val = _; omega
  have hcol : ((((cfg0.win 4).blk t).view.emb (ix3 b r cc)) 2).val = cc.val := by
    show win0_4.index t (2 : Fin 3) * 1024 + 1 * cc.val = _; omega
  show FloatOps.mulf (eye _ _) (lowerDiag (V m c main_arg0 (((cfg0.win 0).blk t).view.emb (ix2 b r)))) = FloatOps.mulf (eye _ _) (lowerDiag (V m c main_arg0 (neuronOf (((cfg0.win 4).blk t).view.emb (ix3 b r cc)))))
  rw [hrow, hcol, neuron0_4 t b r cc]

/-- So the lowerCoef array ends as that function of the argument arrays. -/
theorem lowerCoef_final (c : Dev nD) : (dats m 0 c).arrAt 4 cfg0.N = lowerCoefArr (V m c main_arg0) :=
  (dats m 0 c).arrAt_eq_of_cover 4 _ (fun t _ => lowerCoef_flushed m c t) cover4

/-! ## The upper coefficient -/

/-- An index of the [64, 1024, 1024] array is in point `t`'s block of window 5 iff each coordinate is in the block's range. -/
theorem mem_blk5 (t : Fin cfg0.N) (i : S64x1024x1024.Idx) :
    i ∈ ((cfg0.win 5).blk t).view.set ↔ ∀ a : Fin 3, win0_5.index t a * S16x128x1024.size a ≤ (i a).val ∧ (i a).val < win0_5.index t a * S16x128x1024.size a + S16x128x1024.size a := by
  show i ∈ ((View.whole main_v0_3).slice (win0_5.rect t)).set ↔ _
  rw [View.set_slice_whole, Rect.mem_set_unit]
  exact Iff.rfl

/-- Every entry `(B, R, C)` is in the block of the point `(B / 16, R / 128)`, which spans all columns. -/
theorem cover5 (i : S64x1024x1024.Idx) : ∃ t : Fin cfg0.N, (cfg0.win 5).flush t = true ∧ i ∈ ((cfg0.win 5).blk t).view.set := by
  have hi0 : (i 0).val < 64 := (i 0).isLt
  have hi1 : (i 1).val < 1024 := (i 1).isLt
  have hi2 : (i 2).val < 1024 := (i 2).isLt
  obtain ⟨t, h0, h1⟩ := onto ⟨(i 0).val / 16, by omega⟩ ⟨(i 1).val / 128, by omega⟩
  have h0' : (grid0.coords t 0).val = (i 0).val / 16 := h0
  have h1' : (grid0.coords t 1).val = (i 1).val / 128 := h1
  obtain ⟨e0, e1, e2⟩ := idx5 t
  refine ⟨t, flush0_5 t, ?_⟩
  rw [mem_blk5]
  intro a
  match a with
  | ⟨0, _⟩ => show win0_5.index t (0 : Fin 3) * 16 ≤ (i 0).val ∧ (i 0).val < win0_5.index t (0 : Fin 3) * 16 + 16; omega
  | ⟨1, _⟩ => show win0_5.index t (1 : Fin 3) * 128 ≤ (i 1).val ∧ (i 1).val < win0_5.index t (1 : Fin 3) * 128 + 128; omega
  | ⟨2, _⟩ => show win0_5.index t (2 : Fin 3) * 1024 ≤ (i 2).val ∧ (i 2).val < win0_5.index t (2 : Fin 3) * 1024 + 1024; omega

/-- Neuron `(b, r)` of an input block is the neuron that entry `(b, r, c)` of window 5's block belongs to. -/
theorem neuron0_5 (t : Fin cfg0.N) (b : Fin 16) (r : Fin 128) (cc : Fin 1024) :
    ((cfg0.win 0).blk t).view.emb (ix2 b r) = neuronOf (((cfg0.win 5).blk t).view.emb (ix3 b r cc)) := by
  obtain ⟨a0, a1⟩ := idx0 t
  obtain ⟨e0, e1, e2⟩ := idx5 t
  funext a; apply Fin.ext
  match a with
  | ⟨0, _⟩ => show win0_0.index t (0 : Fin 2) * 16 + 1 * b.val = win0_5.index t (0 : Fin 3) * 16 + 1 * b.val; omega
  | ⟨1, _⟩ => show win0_0.index t (1 : Fin 2) * 128 + 1 * r.val = win0_5.index t (1 : Fin 3) * 128 + 1 * r.val; omega
theorem neuron1_5 (t : Fin cfg0.N) (b : Fin 16) (r : Fin 128) (cc : Fin 1024) :
    ((cfg0.win 1).blk t).view.emb (ix2 b r) = neuronOf (((cfg0.win 5).blk t).view.emb (ix3 b r cc)) := by
  obtain ⟨a0, a1⟩ := idx1 t
  obtain ⟨e0, e1, e2⟩ := idx5 t
  funext a; apply Fin.ext
  match a with
  | ⟨0, _⟩ => show win0_1.index t (0 : Fin 2) * 16 + 1 * b.val = win0_5.index t (0 : Fin 3) * 16 + 1 * b.val; omega
  | ⟨1, _⟩ => show win0_1.index t (1 : Fin 2) * 128 + 1 * r.val = win0_5.index t (1 : Fin 3) * 128 + 1 * r.val; omega

/-- What point `t` writes back through window 5 is block `t` of the upperCoef array. -/
theorem upperCoef_flushed (c : Dev nD) (t : Fin cfg0.N) :
    (dats m 0 c).flushed 5 t = ((cfg0.win 5).blk t).view.read (Elt Ideal) (upperCoefArr (V m c main_arg0) (V m c main_arg1)) := by
  show (cfg0.win 5).cut (grid0.coords t) ((dats m 0 c).after 5 t) = _
  rw [after0_5]
  unfold outsAt0
  dsimp only
  obtain ⟨e0, e1, e2⟩ := idx5 t
  funext y
  obtain ⟨b, r, cc, rfl⟩ : ∃ (b : Fin 16) (r : Fin 128) (cc : Fin 1024), y = ix3 b r cc := ⟨y 0, y 1, y 2, eq_ix3 y⟩
  have hx : (cfg0.win 5).xinj (grid0.coords t) (ix3 b r cc) = ix3 b r cc := rfl
  refine (congrArg (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t)) hx).trans ?_
  refine (upperCoef_entry c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (grid0.coords t 1).val (off_eq t) b r cc).trans ?_
  show _ = upperCoefArr (V m c main_arg0) (V m c main_arg1) (((cfg0.win 5).blk t).view.emb (ix3 b r cc))
  have hrow : ((((cfg0.win 5).blk t).view.emb (ix3 b r cc)) 1).val = 128 * (grid0.coords t 1).val + r.val := by
    show win0_5.index t (1 : Fin 3) * 128 + 1 * r.val = _; omega
  have hcol : ((((cfg0.win 5).blk t).view.emb (ix3 b r cc)) 2).val = cc.val := by
    show win0_5.index t (2 : Fin 3) * 1024 + 1 * cc.val = _; omega
  show FloatOps.mulf (eye _ _) (upperDiag (V m c main_arg0 (((cfg0.win 0).blk t).view.emb (ix2 b r))) (V m c main_arg1 (((cfg0.win 1).blk t).view.emb (ix2 b r)))) = FloatOps.mulf (eye _ _) (upperDiag (V m c main_arg0 (neuronOf (((cfg0.win 5).blk t).view.emb (ix3 b r cc)))) (V m c main_arg1 (neuronOf (((cfg0.win 5).blk t).view.emb (ix3 b r cc)))))
  rw [hrow, hcol, neuron0_5 t b r cc, neuron1_5 t b r cc]

/-- So the upperCoef array ends as that function of the argument arrays. -/
theorem upperCoef_final (c : Dev nD) : (dats m 0 c).arrAt 5 cfg0.N = upperCoefArr (V m c main_arg0) (V m c main_arg1) :=
  (dats m 0 c).arrAt_eq_of_cover 5 _ (fun t _ => upperCoef_flushed m c t) cover5

/-! ## The lower bias: the host operations after the kernel -/

/-- The two host operations after the kernel leave the zero word at every index. -/
theorem lowerBias_tail (c : Dev nD) :
    Pipeline.afterTail₀ cfgs (dats m) 0 (V0 m) [hostOps1] c main_v1 = lowerBiasArr := by
  unfold Pipeline.afterTail₀
  show StableHlo.after hostOps1 _ (Proc.devRef .tc main_v1) = _
  after_results
  rfl

/-! ## The run -/

/-- Every weakly fair execution ends with the six result arrays at their functions of the argument arrays,
    and the argument arrays unchanged. -/
theorem run : θ_run defs (onTc (τ := τ) (main (F := Ideal))) ⟨m, fun _ => 0, ρ⟩ fun r => ∀ c : Dev nD,
      r.2.mem ((c : Thread nD τ).loc main_v0_0) = lowerBoundArr (m ((c : Thread nD τ).loc main_arg0))
      ∧ r.2.mem ((c : Thread nD τ).loc main_v0_1) = upperBoundArr (m ((c : Thread nD τ).loc main_arg1))
      ∧ r.2.mem ((c : Thread nD τ).loc main_v0_2) = lowerCoefArr (m ((c : Thread nD τ).loc main_arg0))
      ∧ r.2.mem ((c : Thread nD τ).loc main_v0_3) = upperCoefArr (m ((c : Thread nD τ).loc main_arg0)) (m ((c : Thread nD τ).loc main_arg1))
      ∧ r.2.mem ((c : Thread nD τ).loc main_v1) = lowerBiasArr
      ∧ r.2.mem ((c : Thread nD τ).loc main_v0_4) = upperBiasArr (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).1 2).trans (lowerBound_final m c),
      ((h c).1 3).trans (upperBound_final m c),
      ((h c).1 4).trans (lowerCoef_final m c),
      ((h c).1 5).trans (upperCoef_final m c),
      ((h c).2 main_v1 (Pipeline.mem_restRefs_of main_v1 rfl (by decide))).trans (lowerBias_tail m c),
      ((h c).1 6).trans (upperBias_final m c),
      ((h c).1 0).trans ((dats m 0 c).arrAt_in 0 rfl _),
      ((h c).1 1).trans ((dats m 0 c).arrAt_in 1 rfl _)⟩)
    (run_main m ρ)

end Cert.KernelIdeal.Arrays

end
-- ==== Proof.RefStages.lean ====
/-
  The reference's six results, read at an index as the per-neuron quantities of the two argument arrays
  `L` (lower bounds) and `U` (upper bounds).

  The two bounds and the bias are pointwise: entry `i` depends on `L i` and `U i` only. A coefficient's
  entry `(B, R, C)` is the identity matrix's entry `(R, C)` times the diagonal value of neuron `(B, R)`:
  the reference broadcasts a [1024, 1024] identity along the batch axis and the [64, 1024] diagonal along
  the column axis and multiplies. The lower bias is the zero word everywhere.
-/
import proofs.«109061_j59949153518085_2_alg».proof.Defs
import proofs.«109061_j59949153518085_2_alg».proof.Proof.Gen.ReferenceIdeal.Run
import proofs.«109061_j59949153518085_2_alg».proof.Proof.Gen.ReferenceIdeal.Read
import proofs.«109061_j59949153518085_2_alg».proof.Proof.Scalars
import Idealize.ShloMosaic.Lib.ValueIdx

noncomputable section

namespace Cert.ReferenceIdeal.Stages

open Cert.ReferenceIdeal Cert.ReferenceIdeal.Read Cert.BoundedRelu
open Idealize.ShloMosaic Idealize.ShloMosaic.ValueIdx

variable (L U : (⟨S64x1024, .f32⟩ : BufTy).Contents (Elt Ideal))

/-- The concrete lower bound at `i` is `max (L i) 0`. -/
theorem lowerBound_apply (i : S64x1024.Idx) : val_main_v1 (F := Ideal) L i = relu (L i) := by
  rw [val_main_v1_apply, val_main_v0_apply, val_main_cst_apply]; rfl

/-- The concrete upper bound at `i` is `max (U i) 0`. -/
theorem upperBound_apply (i : S64x1024.Idx) : val_main_v3 (F := Ideal) U i = relu (U i) := by
  rw [val_main_v3_apply, val_main_v2_apply, val_main_cst_0_apply]; rfl

/-- The active mask at `i`. -/
theorem active_apply (i : S64x1024.Idx) : val_main_v5 (F := Ideal) L i = active (L i) := by
  rw [val_main_v5_apply, val_main_v4_apply, val_main_cst_1_apply]; rfl

/-- The crossing mask at `i`. -/
theorem crossing_apply (i : S64x1024.Idx) : val_main_v10 (F := Ideal) L U i = crossing (L i) (U i) := by
  rw [val_main_v10_apply, val_main_v7_apply, val_main_v9_apply, val_main_v6_apply, val_main_v8_apply,
    val_main_cst_2_apply, val_main_cst_3_apply]; rfl

/-- The slope at `i`. -/
theorem slope_apply (i : S64x1024.Idx) : val_main_v15 (F := Ideal) L U i = slope (L i) (U i) := by
  rw [val_main_v15_apply, crossing_apply, val_main_v14_apply, val_main_v13_apply, val_main_v11_apply,
    val_main_v12_apply, val_main_cst_4_apply, val_main_call0_v1_apply, val_main_call0_v0_apply,
    val_main_cst_5_apply]; rfl

/-- The upper bias at `i`. -/
theorem upperBias_apply (i : S64x1024.Idx) : val_main_v18 (F := Ideal) L U i = upperBias (L i) (U i) := by
  rw [val_main_v18_apply, crossing_apply, val_main_v17_apply, val_main_v16_apply, slope_apply,
    val_main_call1_v1_apply, val_main_call1_v0_apply, val_main_cst_6_apply]; rfl

/-- The lower diagonal at `i`. -/
theorem lowerDiag_apply (i : S64x1024.Idx) : val_main_v19 (F := Ideal) L i = lowerDiag (L i) := by
  rw [val_main_v19_apply, active_apply]; rfl

/-- The upper diagonal at `i`. -/
theorem upperDiag_apply (i : S64x1024.Idx) : val_main_v21 (F := Ideal) L U i = upperDiag (L i) (U i) := by
  rw [val_main_v21_apply, active_apply, val_main_v20_apply, val_main_cst_7_apply, slope_apply]; rfl

/-- The [1024, 1024] identity at `(R, C)`: the row number compared with the column number. -/
theorem eye_apply (R C : Fin 1024) : val_main_v27 (F := Ideal) (ix2 R C) = eye R.val C.val := by
  rw [val_main_v27_apply, val_main_v26_apply, val_main_v25_apply, val_main_v22_apply, val_main_v23_apply,
    val_main_v24_apply, val_main_c_apply]
  show FloatOps.uitofp (F := Ideal) .f32 (IntOp.cmpi .eq (IntOp.addi (BitVec.ofNat 32 R.val) 0#32) (BitVec.ofNat 32 C.val)) = _
  have h0 : IntOp.addi (BitVec.ofNat 32 R.val) 0#32 = BitVec.ofNat 32 R.val := by
    unfold IntOp.addi; exact BitVec.add_zero _
  rw [h0, cmpi_eq_ofNat _ _ (Nat.lt_trans R.isLt (by norm_num)) (Nat.lt_trans C.isLt (by norm_num))]
  rfl

/-- Where the broadcasts of the identity read it: `(B, R, C) ↦ (R, C)`. -/
theorem eyeIdx (B : Fin 64) (R C : Fin 1024) : idx_main_v29 (idx_main_v30 (ix3 B R C)) = ix2 R C :=
  funext fun a => by match a with | ⟨0, _⟩ => rfl | ⟨1, _⟩ => rfl

/-- Where the broadcasts of a diagonal read it: `(B, R, C) ↦ (B, R)`. -/
theorem diagIdx (B : Fin 64) (R C : Fin 1024) : idx_main_v28 (idx_main_v31 (ix3 B R C)) = ix2 B R :=
  funext fun a => by match a with | ⟨0, _⟩ => rfl | ⟨1, _⟩ => rfl

/-- The lower coefficient at `(B, R, C)`: identity entry times the lower diagonal of neuron `(B, R)`. -/
theorem lowerCoef_apply (B : Fin 64) (R C : Fin 1024) :
    val_main_v32 (F := Ideal) L (ix3 B R C) = FloatOps.mulf (eye R.val C.val) (lowerDiag (L (ix2 B R))) := by
  rw [val_main_v32_apply, val_main_v30_apply, val_main_v29_apply, eyeIdx, eye_apply, val_main_v31_apply,
    val_main_v28_apply, diagIdx, lowerDiag_apply]

/-- The upper coefficient at `(B, R, C)`: identity entry times the upper diagonal of neuron `(B, R)`. -/
theorem upperCoef_apply (B : Fin 64) (R C : Fin 1024) :
    val_main_v37 (F := Ideal) L U (ix3 B R C)
      = FloatOps.mulf (eye R.val C.val) (upperDiag (L (ix2 B R)) (U (ix2 B R))) := by
  have e1 : idx_main_v34 (idx_main_v35 (ix3 B R C)) = ix2 R C :=
    funext fun a => by match a with | ⟨0, _⟩ => rfl | ⟨1, _⟩ => rfl
  have e2 : idx_main_v33 (idx_main_v36 (ix3 B R C)) = ix2 B R :=
    funext fun a => by match a with | ⟨0, _⟩ => rfl | ⟨1, _⟩ => rfl
  rw [val_main_v37_apply, val_main_v35_apply, val_main_v34_apply, e1, eye_apply, val_main_v36_apply,
    val_main_v33_apply, e2, upperDiag_apply]

/-- The lower bias is the zero word at every index. -/
theorem lowerBias_apply (i : S64x1024.Idx) : val_main_v38 (F := Ideal) i = zeroW := by
  rw [val_main_v38_apply, val_main_cst_8_apply]

/-! ## Each result as a whole array -/

theorem lowerBound_eq : val_main_v1 (F := Ideal) L = lowerBoundArr L := funext fun i => lowerBound_apply L i
theorem upperBound_eq : val_main_v3 (F := Ideal) U = upperBoundArr U := funext fun i => upperBound_apply U i
theorem upperBias_eq : val_main_v18 (F := Ideal) L U = upperBiasArr L U := funext fun i => upperBias_apply L U i
theorem lowerBias_eq : val_main_v38 (F := Ideal) = lowerBiasArr := funext fun i => lowerBias_apply i

theorem lowerCoef_eq : val_main_v32 (F := Ideal) L = lowerCoefArr L := funext fun y => by
  obtain ⟨B, R, C, rfl⟩ : ∃ (B : Fin 64) (R C : Fin 1024), y = ix3 B R C := ⟨y 0, y 1, y 2, eq_ix3 y⟩
  exact lowerCoef_apply L B R C

theorem upperCoef_eq : val_main_v37 (F := Ideal) L U = upperCoefArr L U := funext fun y => by
  obtain ⟨B, R, C, rfl⟩ : ∃ (B : Fin 64) (R C : Fin 1024), y = ix3 B R C := ⟨y 0, y 1, y 2, eq_ix3 y⟩
  exact upperCoef_apply L U B R C

end Cert.ReferenceIdeal.Stages

end
-- ==== Proof.lean ====
/-
  ReLU bound propagation: from elementwise bounds `l ≤ x ≤ u` on 64 × 1024 pre-activations, the concrete
  bounds `max l 0` and `max u 0` and a linear relaxation of the ReLU per neuron. The relaxation's
  coefficients are diagonal: the lower one is 1 on an active neuron (`l ≥ 0`) and 0 otherwise; the upper
  one is 1 on an active neuron and the slope `u / (u - l + ε)` on a crossing one (`l < 0 < u`), else 0;
  the upper bias is `-slope · l` on a crossing neuron and the lower bias is 0. Each diagonal is
  delivered as a dense [64, 1024, 1024] tensor, `eye[R, C] · diag[B, R]`.

  The reference multiplies a [1024, 1024] identity by the diagonal, both broadcast to the full tensor. The
  kernel walks a 4 × 8 grid of [16, 128] neuron blocks; for each it fills the [16, 128, 1024] coefficient
  block with zeros and then overwrites its 128 columns `128·j …` with a [128, 128] identity times the
  block's diagonal. Over the extended reals the two agree entry by entry: inside the overwritten columns
  the two identities compare the same pair of numbers shifted by `128·j`; outside them the row and the
  column differ, the reference's identity entry is 0, and 0 times any extended real (infinite ones
  included) is 0, the value the kernel's fill left. So no finiteness of the inputs is used. The remaining
  differences are spellings of one number: `0 - slope` for `-slope`, a truth bit widened and read
  signed for the bit read unsigned, the kernel's division for the host's.

  The kernel's frame, its idealization's frame and the reference's run are the generated ones; the ideal
  pass rewrote nothing, so the idealization's ledger is empty.
-/
import proofs.«109061_j59949153518085_2_alg».proof.Defs
import proofs.«109061_j59949153518085_2_alg».proof.Proof.Gen.Kernel
import proofs.«109061_j59949153518085_2_alg».proof.Proof.Gen.Kernel.Frame
import proofs.«109061_j59949153518085_2_alg».proof.Proof.Gen.KernelIdeal
import proofs.«109061_j59949153518085_2_alg».proof.Proof.Gen.KernelIdeal.Frame
import proofs.«109061_j59949153518085_2_alg».proof.Proof.Gen.ReferenceIdeal
import proofs.«109061_j59949153518085_2_alg».proof.Proof.Gen.ReferenceIdeal.Run
import proofs.«109061_j59949153518085_2_alg».proof.Proof.Gen.ReferenceIdeal.Read
import proofs.«109061_j59949153518085_2_alg».proof.Proof.Gen.Pre_finite_inputs
import proofs.«109061_j59949153518085_2_alg».proof.Proof.KernelIdealArrays
import proofs.«109061_j59949153518085_2_alg».proof.Proof.RefStages
import Idealize.ShloMosaic.Adequacy
import Idealize.ShloMosaic.Init

noncomputable section

namespace Cert.Proof

open Idealize.ShloMosaic Idealize.SL.Sem Cert.BoundedRelu

theorem frame_kernel : Cert.frame_Kernel := fun m ρ _ => Cert.Kernel.Gen.frame m ρ

theorem frame_kernelIdeal : Cert.frame_KernelIdeal := fun m ρ _ => Cert.KernelIdeal.Gen.frame m ρ

/-- The reference's run keeps its arguments: the last two conjuncts of its post. -/
theorem frame_referenceIdeal : Cert.frame_ReferenceIdeal := fun m ρ _ =>
  (θ_run Cert.ReferenceIdeal.defs _ _).mono (fun _ h c => (h c).2.2.2.2.2.2)
    (Cert.ReferenceIdeal.Value.run (F := Ideal) m ρ)

theorem preserves : Cert.preserves_Kernel_KernelIdeal := trivial

/-- Both programs end with each of the six results at the same function of the argument arrays. -/
theorem algebraic : Cert.algebraic_KernelIdeal_ReferenceIdeal := by
  intro m ρ m' ρ' _ hagree
  refine ⟨fun c => lowerBoundArr (m ((c.tc : Thread Cert.KernelIdeal.nD Cert.KernelIdeal.τ).loc Cert.KernelIdeal.main_arg0)),
    fun c => upperBoundArr (m ((c.tc : Thread Cert.KernelIdeal.nD Cert.KernelIdeal.τ).loc Cert.KernelIdeal.main_arg1)),
    fun c => lowerCoefArr (m ((c.tc : Thread Cert.KernelIdeal.nD Cert.KernelIdeal.τ).loc Cert.KernelIdeal.main_arg0)),
    fun c => upperCoefArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    fun _ => lowerBiasArr,
    fun c => upperBiasArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)),
    Cert.KernelIdeal.Arrays.run m ρ, ?_⟩
  refine (θ_run Cert.ReferenceIdeal.defs _ _).mono (fun _ h c => ?_)
    (Cert.ReferenceIdeal.Value.run (F := Ideal) m' ρ')
  obtain ⟨h1, h3, h32, h37, h38, h18, ha0, ha1⟩ := h c
  refine ⟨h1.trans ?_, h3.trans ?_, h32.trans ?_, h37.trans ?_, h38.trans ?_, h18.trans ?_, ha0, ha1⟩
  · rw [Cert.ReferenceIdeal.Read.val_main_v1_eq, Cert.ReferenceIdeal.Stages.lowerBound_eq, (hagree c).1]
  · rw [Cert.ReferenceIdeal.Read.val_main_v3_eq, Cert.ReferenceIdeal.Stages.upperBound_eq, (hagree c).2]
  · rw [Cert.ReferenceIdeal.Read.val_main_v32_eq, Cert.ReferenceIdeal.Stages.lowerCoef_eq, (hagree c).1]
  · rw [Cert.ReferenceIdeal.Read.val_main_v37_eq, Cert.ReferenceIdeal.Stages.upperCoef_eq, (hagree c).1, (hagree c).2]
  · rw [Cert.ReferenceIdeal.Read.val_main_v38_eq, Cert.ReferenceIdeal.Stages.lowerBias_eq]
  · rw [Cert.ReferenceIdeal.Read.val_main_v18_eq, Cert.ReferenceIdeal.Stages.upperBias_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
